-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x8192 : Shape := ⟨3, ![8, 16, 8192]⟩
abbrev S8192x8192 : Shape := ⟨2, ![8192, 8192]⟩
abbrev S8192 : Shape := ⟨1, ![8192]⟩
abbrev S16x8192 : Shape := ⟨2, ![16, 8192]⟩
abbrev S8192x16 : Shape := ⟨2, ![8192, 16]⟩
abbrev S_ : Shape := ⟨0, ![]⟩

class Facts : Prop where
  bcast_S_S8x16x8192 : S_.BroadcastsInDim S8x16x8192 (![] : Fin 0 → Fin S8x16x8192.rank)
  reducesTo_S8x16x8192_S_d0_1_2 : S8x16x8192.ReducesTo [0, 1, 2] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_
  bcast_S_S16x8192 : S_.BroadcastsInDim S16x8192 (![] : Fin 0 → Fin S16x8192.rank)
  reducesTo_S16x8192_S_d0_1 : S16x8192.ReducesTo [0, 1] S_
  bcast_S_S8192x16 : S_.BroadcastsInDim S8192x16 (![] : Fin 0 → Fin S8192x16.rank)
  reducesTo_S8192x16_S_d0_1 : S8192x16.ReducesTo [0, 1] S_

variable [Facts]

def fn_part1 {F : FTy → Type} [FloatOps F] (main_arg4 : FVec F S8192x16 .f32) (main_v13 : IVec S_ 1) (main_v16 : IVec S16x8192 1) : IVec S_ 1 :=
  let main_c_5 : IVec S_ 1 := constantI S_ 1 1#1
  let main_v17 : IVec S_ 1 := (fun x v => Host.reduce IntOp.andi x v reducesTo_S16x8192_S_d0_1 h_S_) main_v16 main_c_5
  let main_v18 : IVec S_ 1 := andi main_v13 main_v17
  let main_v19 : FVec F S8192x16 .f32 := Host.absf main_arg4
  let main_cst_6 : FVec F S_ .f32 := constant S_ .f32 0x7F800000#32
  let main_v20 : FVec F S8192x16 .f32 := broadcastInDim S8192x16 ![] bcast_S_S8192x16 main_cst_6
  let main_v21 : IVec S8192x16 1 := cmpf .olt main_v19 main_v20
  let main_c_7 : IVec S_ 1 := constantI S_ 1 1#1
  let main_v22 : IVec S_ 1 := (fun x v => Host.reduce IntOp.andi x v reducesTo_S8192x16_S_d0_1 h_S_) main_v21 main_c_7
  let main_v23 : IVec S_ 1 := andi main_v18 main_v22
  main_v23

def fn {F : FTy → Type} [FloatOps F] (main_arg0 : FVec F S8x16x8192 .f32) (main_arg1 : FVec F S8192x8192 .f32) (main_arg2 : FVec F S8192 .f32) (main_arg3 : FVec F S16x8192 .f32) (main_arg4 : FVec F S8192x16 .f32) : IVec S_ 1 :=
  let main_v0 : FVec F S8x16x8192 .f32 := Host.absf main_arg0
  let main_cst : FVec F S_ .f32 := constant S_ .f32 0x7F800000#32
  let main_v1 : FVec F S8x16x8192 .f32 := broadcastInDim S8x16x8192 ![] bcast_S_S8x16x8192 main_cst
  let main_v2 : IVec S8x16x8192 1 := cmpf .olt main_v0 main_v1
  let main_c : IVec S_ 1 := constantI S_ 1 1#1
  let main_v3 : IVec S_ 1 := (fun x v => Host.reduce IntOp.andi x v reducesTo_S8x16x8192_S_d0_1_2 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S16x8192 .f32 := Host.absf main_arg3
  let main_cst_4 : FVec F S_ .f32 := constant S_ .f32 0x7F800000#32
  let main_v15 : FVec F S16x8192 .f32 := broadcastInDim S16x8192 ![] bcast_S_S16x8192 main_cst_4
  let main_v16 : IVec S16x8192 1 := cmpf .olt main_v14 main_v15
  fn_part1 (F := F) main_arg4 main_v13 main_v16
-- ==== Kernel.lean ====
abbrev S8x16x8192 : Shape := ⟨3, ![8, 16, 8192]⟩
abbrev S8192x8192 : Shape := ⟨2, ![8192, 8192]⟩
abbrev S8192 : Shape := ⟨1, ![8192]⟩
abbrev S16x8192 : Shape := ⟨2, ![16, 8192]⟩
abbrev S8192x16 : Shape := ⟨2, ![8192, 16]⟩
abbrev S128x8192 : Shape := ⟨2, ![128, 8192]⟩
abbrev S1x8192 : Shape := ⟨2, ![1, 8192]⟩
abbrev S2048x1024 : Shape := ⟨2, ![2048, 1024]⟩
abbrev S1x2048 : Shape := ⟨2, ![1, 2048]⟩
abbrev S16x1024 : Shape := ⟨2, ![16, 1024]⟩
abbrev S16x2048 : Shape := ⟨2, ![16, 2048]⟩
abbrev S128x2048 : Shape := ⟨2, ![128, 2048]⟩
abbrev S128x16 : Shape := ⟨2, ![128, 16]⟩
abbrev S128x1024 : Shape := ⟨2, ![128, 1024]⟩

abbrev nBuf : Space → Nat
  | .hbm => 10
  | .vmem => 13
  | .smem => 0
  | _ => 0

abbrev bufTy : (tb : Table) → Fin (tcTables nBuf tb) → BufTy
  | .hbm, ⟨0, _⟩ => ⟨S8x16x8192, .f32⟩
  | .hbm, ⟨1, _⟩ => ⟨S8192x8192, .f32⟩
  | .hbm, ⟨2, _⟩ => ⟨S8192, .f32⟩
  | .hbm, ⟨3, _⟩ => ⟨S16x8192, .f32⟩
  | .hbm, ⟨4, _⟩ => ⟨S8192x16, .f32⟩
  | .hbm, ⟨5, _⟩ => ⟨S128x8192, .f32⟩
  | .hbm, ⟨6, _⟩ => ⟨S1x8192, .f32⟩
  | .hbm, ⟨7, _⟩ => ⟨S16x8192, .f32⟩
  | .hbm, ⟨8, _⟩ => ⟨S128x8192, .f32⟩
  | .hbm, ⟨9, _⟩ => ⟨S8x16x8192, .f32⟩
  | .local _ .vmem, ⟨0, _⟩ => ⟨S128x8192, .f32⟩
  | .local _ .vmem, ⟨1, _⟩ => ⟨S2048x1024, .f32⟩
  | .local _ .vmem, ⟨2, _⟩ => ⟨S2048x1024, .f32⟩
  | .local _ .vmem, ⟨3, _⟩ => ⟨S1x2048, .f32⟩
  | .local _ .vmem, ⟨4, _⟩ => ⟨S1x2048, .f32⟩
  | .local _ .vmem, ⟨5, _⟩ => ⟨S16x1024, .f32⟩
  | .local _ .vmem, ⟨6, _⟩ => ⟨S16x1024, .f32⟩
  | .local _ .vmem, ⟨7, _⟩ => ⟨S16x2048, .f32⟩
  | .local _ .vmem, ⟨8, _⟩ => ⟨S16x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x16, .f32⟩
  | _, _ => ⟨S8x16x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, v5.toNat]
def k0_cond2 (i : grid0.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_14 : BitVec 32 := 0#32
  let v27 : BitVec 1 := Scalar.cmpi .ne v26 c0_i32_14
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S128x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S8x16x8192_S128x8192 : S8x16x8192.ShapeCasts S128x8192
  shapeCasts_S8192_S1x8192 : S8192.ShapeCasts S1x8192
  transposes_S8192x16_S16x8192_1_0 : S8192x16.Transposes [1, 0] S16x8192
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S128x16_S128x16_0_0 : ∀ a, (![0, 0] : Fin 2 → Nat) a + S128x16.size a ≤ S128x16.size a
  h_S128x16 : 0 < S128x16.numel
  shapeCasts_S128x16_S128x16 : S128x16.ShapeCasts S128x16
  h_S128x1024 : 0 < S128x1024.numel
  shapeCasts_S128x1024_S128x1024 : S128x1024.ShapeCasts S128x1024
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  inb_S16x1024_S16x1024_0_0 : ∀ a, (![0, 0] : Fin 2 → Nat) a + S16x1024.size a ≤ S16x1024.size a
  h_S16x1024 : 0 < S16x1024.numel
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  shapeCasts_S128x8192_S8x16x8192 : S128x8192.ShapeCasts S8x16x8192
  dot_S128x1024_S2048x1024_S128x2048_1_1_0_0_n_n_wf : DotDims.WF S128x1024 S2048x1024 S128x2048 [1] [1] [0] [0] [] []
  dot_S128x1024_S16x1024_S128x16_1_1_0_0_n_n_wf : DotDims.WF S128x1024 S16x1024 S128x16 [1] [1] [0] [0] [] []
  dot_S128x16_S16x2048_S128x2048_1_0_0_1_n_n_wf : DotDims.WF S128x16 S16x2048 S128x2048 [1] [0] [0] [1] [] []
  hrank0 : 0 < grid0.rank
  k0_mult1_dvd : ∀ i : grid0.Coords, 128 ∣ (k0_mult1 i).toNat
  k0_off1_inb : ∀ i : grid0.Coords, ∀ a, (k0_off1 i) a + S128x1024.size a ≤ S128x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S128x8192.size a
  hwx0_0 : ∀ i : grid0.Coords, EltTy.bits .f32 = 32 ∨ (Rect.block (s := S128x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S8192x8192.size a
  hwx0_1 : ∀ i : grid0.Coords, EltTy.bits .f32 = 32 ∨ (Rect.block (s := S8192x8192) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x8192.size a
  hwx0_2 : ∀ i : grid0.Coords, EltTy.bits .f32 = 32 ∨ (Rect.block (s := S1x8192) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x8192.size a
  hwx0_3 : ∀ i : grid0.Coords, EltTy.bits .f32 = 32 ∨ (Rect.block (s := S16x8192) S16x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x2048.size a ≤ S16x8192.size a
  hwx0_4 : ∀ i : grid0.Coords, EltTy.bits .f32 = 32 ∨ (Rect.block (s := S16x8192) S16x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S128x8192.size a
  hwx0_5 : ∀ i : grid0.Coords, EltTy.bits .f32 = 32 ∨ (Rect.block (s := S128x8192) S128x2048.size (cc0_transform_5 i) (hinb0_5 i)).WholeWords (EltTy.packing .f32)

variable [Facts₀]

def dot_S128x1024_S2048x1024_S128x2048_1_1_0_0_n_n : DotDims S128x1024 S2048x1024 S128x2048 where
  lhsContracting := [1]
  rhsContracting := [1]
  lhsNonContracting := [0]
  rhsNonContracting := [0]
  lhsBatch := []
  rhsBatch := []
  wf := dot_S128x1024_S2048x1024_S128x2048_1_1_0_0_n_n_wf
def dot_S128x1024_S16x1024_S128x16_1_1_0_0_n_n : DotDims S128x1024 S16x1024 S128x16 where
  lhsContracting := [1]
  rhsContracting := [1]
  lhsNonContracting := [0]
  rhsNonContracting := [0]
  lhsBatch := []
  rhsBatch := []
  wf := dot_S128x1024_S16x1024_S128x16_1_1_0_0_n_n_wf
def dot_S128x16_S16x2048_S128x2048_1_0_0_1_n_n : DotDims S128x16 S16x2048 S128x2048 where
  lhsContracting := [1]
  rhsContracting := [0]
  lhsNonContracting := [0]
  rhsNonContracting := [1]
  lhsBatch := []
  rhsBatch := []
  wf := dot_S128x16_S16x2048_S128x2048_1_0_0_1_n_n_wf

abbrev win0_0 : Pipeline.Window sig grid0 :=
  Pipeline.Window.ofSpec (Memref.whole main_v0) S128x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S16x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S128x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x16x8192 : Shape := ⟨3, ![8, 16, 8192]⟩
abbrev S8192x8192 : Shape := ⟨2, ![8192, 8192]⟩
abbrev S8192 : Shape := ⟨1, ![8192]⟩
abbrev S16x8192 : Shape := ⟨2, ![16, 8192]⟩
abbrev S8192x16 : Shape := ⟨2, ![8192, 16]⟩
abbrev S1x1x8192 : Shape := ⟨3, ![1, 1, 8192]⟩
abbrev S8x16x16 : Shape := ⟨3, ![8, 16, 16]⟩

abbrev nBuf : Space → Nat
  | .hbm => 12
  | .vmem => 0
  | .smem => 0
  | _ => 0

abbrev bufTy : (tb : Table) → Fin (tcTables nBuf tb) → BufTy
  | .hbm, ⟨0, _⟩ => ⟨S8x16x8192, .f32⟩
  | .hbm, ⟨1, _⟩ => ⟨S8192x8192, .f32⟩
  | .hbm, ⟨2, _⟩ => ⟨S8192, .f32⟩
  | .hbm, ⟨3, _⟩ => ⟨S16x8192, .f32⟩
  | .hbm, ⟨4, _⟩ => ⟨S8192x16, .f32⟩
  | .hbm, ⟨5, _⟩ => ⟨S8x16x8192, .f32⟩
  | .hbm, ⟨6, _⟩ => ⟨S1x1x8192, .f32⟩
  | .hbm, ⟨7, _⟩ => ⟨S8x16x8192, .f32⟩
  | .hbm, ⟨8, _⟩ => ⟨S8x16x8192, .f32⟩
  | .hbm, ⟨9, _⟩ => ⟨S8x16x16, .f32⟩
  | .hbm, ⟨10, _⟩ => ⟨S8x16x8192, .f32⟩
  | .hbm, ⟨11, _⟩ => ⟨S8x16x8192, .f32⟩
  | _, _ => ⟨S8x16x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S8192_S1x1x8192_2 : S8192.BroadcastsInDim S1x1x8192 (![2] : Fin 1 → Fin S1x1x8192.rank)
  bcast_S1x1x8192_S8x16x8192_0_1_2 : S1x1x8192.BroadcastsInDim S8x16x8192 (![0, 1, 2] : Fin 3 → Fin S8x16x8192.rank)
  dot_S8x16x8192_S8192x8192_S8x16x8192_2_1_01_0_n_n_wf : DotDims.WF S8x16x8192 S8192x8192 S8x16x8192 [2] [1] [0, 1] [0] [] []
  dot_S8x16x8192_S16x8192_S8x16x16_2_1_01_0_n_n_wf : DotDims.WF S8x16x8192 S16x8192 S8x16x16 [2] [1] [0, 1] [0] [] []
  dot_S8x16x16_S8192x16_S8x16x8192_2_1_01_0_n_n_wf : DotDims.WF S8x16x16 S8192x16 S8x16x8192 [2] [1] [0, 1] [0] [] []

variable [Facts₀]

def dot_S8x16x8192_S8192x8192_S8x16x8192_2_1_01_0_n_n : DotDims S8x16x8192 S8192x8192 S8x16x8192 where
  lhsContracting := [2]
  rhsContracting := [1]
  lhsNonContracting := [0, 1]
  rhsNonContracting := [0]
  lhsBatch := []
  rhsBatch := []
  wf := dot_S8x16x8192_S8192x8192_S8x16x8192_2_1_01_0_n_n_wf
def dot_S8x16x8192_S16x8192_S8x16x16_2_1_01_0_n_n : DotDims S8x16x8192 S16x8192 S8x16x16 where
  lhsContracting := [2]
  rhsContracting := [1]
  lhsNonContracting := [0, 1]
  rhsNonContracting := [0]
  lhsBatch := []
  rhsBatch := []
  wf := dot_S8x16x8192_S16x8192_S8x16x16_2_1_01_0_n_n_wf
def dot_S8x16x16_S8192x16_S8x16x8192_2_1_01_0_n_n : DotDims S8x16x16 S8192x16 S8x16x8192 where
  lhsContracting := [2]
  rhsContracting := [1]
  lhsNonContracting := [0, 1]
  rhsNonContracting := [0]
  lhsBatch := []
  rhsBatch := []
  wf := dot_S8x16x16_S8192x16_S8x16x8192_2_1_01_0_n_n_wf

class Facts : Prop extends Facts₀ where

variable [Facts]
-- ==== Proof.KernelPieces.lean ====
/-
  What one run of the kernel body leaves behind, case by case, as pure terms of what it read.

  The body keeps two running sums in scratch memory across the contraction tiles: the base product's (128 × 2048) and
  the down projection's (128 × 16).  At a point it reads the slab of the resident activations that belongs to the
  point's contraction tile (`slab`: all 128 rows, 1024 consecutive columns), adds the slab's product with the weight
  tile to the first running sum and its product with the down-projection tile to the second.  At the first tile the
  running sums are first reset to zero; at the last tile the output block is the first running sum plus the second
  one's product with the up-projection tile, plus the bias row.  Each lemma below reads one buffer's final contents
  back from the stores the body made, for any float instance.
-/
import proofs.«133900_j72980084293847_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The slab of the resident activations the body reads at grid point `i`: every row, the 1024 columns of the
    point's contraction tile. -/
abbrev slab (i : grid0.Coords) (x0 : Vec F S128x8192 .f32) : Vec F S128x1024 .f32 :=
  View.ld x0 (Rect.unit (s := S128x8192) (k0_off1 i) S128x1024.size (k0_off1_inb i))

/-! ## The first contraction tile: reset, then add -/

/-- After a point of the first tile the base running sum is zero plus the slab's product with the weight tile. -/
theorem base_first (c : Dev nD) (i : grid0.Coords) (arg2 : Memref sig .tc .vmem S128x8192 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S16x1024 .f32) (harg5 : arg5.IsWhole) (arg6 : Memref sig .tc .vmem S16x2048 .f32) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x16 .f32) (harg9 : arg9.IsWhole) (hc0 : cond0_0 i) (hc1 : ¬cond0_1 i) (x0 : Vec F S128x8192 .f32) (x1 : Vec F S2048x1024 .f32) (x2 : Vec F S1x2048 .f32) (x3 : Vec F S16x1024 .f32) (x4 : Vec F S16x2048 .f32) :
    sout0_A_0 c i arg2 harg2 arg3 harg3 arg4 harg4 arg5 harg5 arg6 harg6 arg7 harg7 arg8 harg8 arg9 harg9 hc0 hc1 x0 x1 x2 x3 x4 = k0_pay4 (slab i x0) x1 k0_pay1 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S128x2048) hz, View.readCov_unit_zero (S := S128x2048) _ hz]
  simp only [View.readAt_eq_ld, harg2.read_unread, harg3.read_unread, harg4.read_unread, harg5.read_unread, harg6.read_unread, harg8.read_unread, harg9.read_unread, View.ld_unit_zero (S := S2048x1024) hz, View.ld_unit_zero (S := S16x1024) hz, View.ld_unit_zero (S := S128x2048) hz, View.ld_unit_zero (S := S128x16) hz, View.ld_unit_zero (S := S16x2048) hz, View.ld_unit_zero (S := S1x2048) hz]
  rfl

/-- After a point of the first tile the down projection's running sum is zero plus the slab's product with its tile. -/
theorem down_first (c : Dev nD) (i : grid0.Coords) (arg2 : Memref sig .tc .vmem S128x8192 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S16x1024 .f32) (harg5 : arg5.IsWhole) (arg6 : Memref sig .tc .vmem S16x2048 .f32) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x16 .f32) (harg9 : arg9.IsWhole) (hc0 : cond0_0 i) (hc1 : ¬cond0_1 i) (x0 : Vec F S128x8192 .f32) (x1 : Vec F S2048x1024 .f32) (x2 : Vec F S1x2048 .f32) (x3 : Vec F S16x1024 .f32) (x4 : Vec F S16x2048 .f32) :
    sout0_A_1 c i arg2 harg2 arg3 harg3 arg4 harg4 arg5 harg5 arg6 harg6 arg7 harg7 arg8 harg8 arg9 harg9 hc0 hc1 x0 x1 x2 x3 x4 = k0_pay5 (slab i x0) x3 k0_pay2 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S128x16) hz, View.readCov_unit_zero (S := S128x16) _ hz]
  simp only [View.readAt_eq_ld, harg2.read_unread, harg3.read_unread, harg4.read_unread, harg5.read_unread, harg6.read_unread, harg8.read_unread, harg9.read_unread, View.ld_unit_zero (S := S2048x1024) hz, View.ld_unit_zero (S := S16x1024) hz, View.ld_unit_zero (S := S128x2048) hz, View.ld_unit_zero (S := S128x16) hz, View.ld_unit_zero (S := S16x2048) hz, View.ld_unit_zero (S := S1x2048) hz]
  rfl

/-! ## A middle contraction tile: add -/

/-- After a middle point the base running sum is what it was plus the slab's product with the weight tile. -/
theorem base_mid (c : Dev nD) (i : grid0.Coords) (arg2 : Memref sig .tc .vmem S128x8192 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S16x1024 .f32) (harg5 : arg5.IsWhole) (arg6 : Memref sig .tc .vmem S16x2048 .f32) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x16 .f32) (harg9 : arg9.IsWhole) (hc0 : ¬cond0_0 i) (hc1 : ¬cond0_1 i) (x0 : Vec F S128x8192 .f32) (x1 : Vec F S2048x1024 .f32) (x2 : Vec F S1x2048 .f32) (x3 : Vec F S16x1024 .f32) (x4 : Vec F S16x2048 .f32) (xs0 : Vec F S128x2048 .f32) (xs1 : Vec F S128x16 .f32) :
    sout0_B_0 c i arg2 harg2 arg3 harg3 arg4 harg4 arg5 harg5 arg6 harg6 arg7 harg7 arg8 harg8 arg9 harg9 hc0 hc1 x0 x1 x2 x3 x4 xs0 xs1 = k0_pay4 (slab i x0) x1 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_unit_zero (S := S128x2048) hz]
  simp only [View.readAt_eq_ld, harg2.read_unread, harg3.read_unread, harg4.read_unread, harg5.read_unread, harg6.read_unread, harg8.read_unread, harg9.read_unread, View.ld_unit_zero (S := S2048x1024) hz, View.ld_unit_zero (S := S16x1024) hz, View.ld_unit_zero (S := S128x2048) hz, View.ld_unit_zero (S := S128x16) hz, View.ld_unit_zero (S := S16x2048) hz, View.ld_unit_zero (S := S1x2048) hz]
  rfl

/-- After a middle point the down projection's running sum is what it was plus the slab's product with its tile. -/
theorem down_mid (c : Dev nD) (i : grid0.Coords) (arg2 : Memref sig .tc .vmem S128x8192 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S16x1024 .f32) (harg5 : arg5.IsWhole) (arg6 : Memref sig .tc .vmem S16x2048 .f32) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x16 .f32) (harg9 : arg9.IsWhole) (hc0 : ¬cond0_0 i) (hc1 : ¬cond0_1 i) (x0 : Vec F S128x8192 .f32) (x1 : Vec F S2048x1024 .f32) (x2 : Vec F S1x2048 .f32) (x3 : Vec F S16x1024 .f32) (x4 : Vec F S16x2048 .f32) (xs0 : Vec F S128x2048 .f32) (xs1 : Vec F S128x16 .f32) :
    sout0_B_1 c i arg2 harg2 arg3 harg3 arg4 harg4 arg5 harg5 arg6 harg6 arg7 harg7 arg8 harg8 arg9 harg9 hc0 hc1 x0 x1 x2 x3 x4 xs0 xs1 = k0_pay5 (slab i x0) x3 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_unit_zero (S := S128x16) hz]
  simp only [View.readAt_eq_ld, harg2.read_unread, harg3.read_unread, harg4.read_unread, harg5.read_unread, harg6.read_unread, harg8.read_unread, harg9.read_unread, View.ld_unit_zero (S := S2048x1024) hz, View.ld_unit_zero (S := S16x1024) hz, View.ld_unit_zero (S := S128x2048) hz, View.ld_unit_zero (S := S128x16) hz, View.ld_unit_zero (S := S16x2048) hz, View.ld_unit_zero (S := S1x2048) hz]
  rfl

/-! ## The last contraction tile: add, then write the output block -/

/-- After a point of the last tile the base running sum is what it was plus the slab's product with the weight tile. -/
theorem base_last (c : Dev nD) (i : grid0.Coords) (arg2 : Memref sig .tc .vmem S128x8192 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S16x1024 .f32) (harg5 : arg5.IsWhole) (arg6 : Memref sig .tc .vmem S16x2048 .f32) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x16 .f32) (harg9 : arg9.IsWhole) (hc0 : ¬cond0_0 i) (hc1 : cond0_1 i) (x0 : Vec F S128x8192 .f32) (x1 : Vec F S2048x1024 .f32) (x2 : Vec F S1x2048 .f32) (x3 : Vec F S16x1024 .f32) (x4 : Vec F S16x2048 .f32) (xs0 : Vec F S128x2048 .f32) (xs1 : Vec F S128x16 .f32) :
    sout0_C_0 c i arg2 harg2 arg3 harg3 arg4 harg4 arg5 harg5 arg6 harg6 arg7 harg7 arg8 harg8 arg9 harg9 hc0 hc1 x0 x1 x2 x3 x4 xs0 xs1 = k0_pay4 (slab i x0) x1 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero (S := S128x2048) hz]
  simp only [View.readAt_eq_ld, harg2.read_unread, harg3.read_unread, harg4.read_unread, harg5.read_unread, harg6.read_unread, harg8.read_unread, harg9.read_unread, View.ld_unit_zero (S := S2048x1024) hz, View.ld_unit_zero (S := S16x1024) hz, View.ld_unit_zero (S := S128x2048) hz, View.ld_unit_zero (S := S128x16) hz, View.ld_unit_zero (S := S16x2048) hz, View.ld_unit_zero (S := S1x2048) hz]
  rfl

/-- After a point of the last tile the down projection's running sum is what it was plus the slab's product with its tile. -/
theorem down_last (c : Dev nD) (i : grid0.Coords) (arg2 : Memref sig .tc .vmem S128x8192 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S16x1024 .f32) (harg5 : arg5.IsWhole) (arg6 : Memref sig .tc .vmem S16x2048 .f32) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x16 .f32) (harg9 : arg9.IsWhole) (hc0 : ¬cond0_0 i) (hc1 : cond0_1 i) (x0 : Vec F S128x8192 .f32) (x1 : Vec F S2048x1024 .f32) (x2 : Vec F S1x2048 .f32) (x3 : Vec F S16x1024 .f32) (x4 : Vec F S16x2048 .f32) (xs0 : Vec F S128x2048 .f32) (xs1 : Vec F S128x16 .f32) :
    sout0_C_1 c i arg2 harg2 arg3 harg3 arg4 harg4 arg5 harg5 arg6 harg6 arg7 harg7 arg8 harg8 arg9 harg9 hc0 hc1 x0 x1 x2 x3 x4 xs0 xs1 = k0_pay5 (slab i x0) x3 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero (S := S128x16) hz]
  simp only [View.readAt_eq_ld, harg2.read_unread, harg3.read_unread, harg4.read_unread, harg5.read_unread, harg6.read_unread, harg8.read_unread, harg9.read_unread, View.ld_unit_zero (S := S2048x1024) hz, View.ld_unit_zero (S := S16x1024) hz, View.ld_unit_zero (S := S128x2048) hz, View.ld_unit_zero (S := S128x16) hz, View.ld_unit_zero (S := S16x2048) hz, View.ld_unit_zero (S := S1x2048) hz]
  rfl

/-- At a point of the last tile the output block is the epilogue of the two running sums just completed: the base sum,
    plus the down projection's sum times the up-projection tile, plus the bias row. -/
theorem out_last (c : Dev nD) (i : grid0.Coords) (arg2 : Memref sig .tc .vmem S128x8192 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S16x1024 .f32) (harg5 : arg5.IsWhole) (arg6 : Memref sig .tc .vmem S16x2048 .f32) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x16 .f32) (harg9 : arg9.IsWhole) (hc0 : ¬cond0_0 i) (hc1 : cond0_1 i) (x0 : Vec F S128x8192 .f32) (x1 : Vec F S2048x1024 .f32) (x2 : Vec F S1x2048 .f32) (x3 : Vec F S16x1024 .f32) (x4 : Vec F S16x2048 .f32) (xs0 : Vec F S128x2048 .f32) (xs1 : Vec F S128x16 .f32) :
    out0_C_5 c i arg2 harg2 arg3 harg3 arg4 harg4 arg5 harg5 arg6 harg6 arg7 harg7 arg8 harg8 arg9 harg9 hc0 hc1 x0 x1 x2 x3 x4 xs0 xs1
      = k0_pay6 (k0_pay5 (slab i x0) x3 xs1) x4 (k0_pay4 (slab i x0) x1 xs0) x2 := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero (S := S128x2048) hz, View.readCov_unit_zero (S := S128x16) _ hz, View.readCov_unit_zero (S := S128x2048) _ hz]
  simp only [View.readAt_eq_ld, harg2.read_unread, harg3.read_unread, harg4.read_unread, harg5.read_unread, harg6.read_unread, harg8.read_unread, harg9.read_unread, View.ld_unit_zero (S := S2048x1024) hz, View.ld_unit_zero (S := S16x1024) hz, View.ld_unit_zero (S := S128x2048) hz, View.ld_unit_zero (S := S128x16) hz, View.ld_unit_zero (S := S16x2048) hz, View.ld_unit_zero (S := S1x2048) hz]
  rfl

end Cert.KernelIdeal.Pieces

end
-- ==== Proof.LoraSpec.lean ====
/-
  The mathematics of a linear layer with a low-rank correction, written once over literal shapes and no program.

  With the activations flattened to a matrix `X` of 128 rows and 8192 columns, a weight `W` (8192 × 8192), a bias
  row `b` (1 × 8192), the down projection `A` (16 × 8192) and the transposed up projection `Bt` (16 × 8192), the layer's
  entry at row `p`, column `o` is

      (∑ d, X p d · W o d  +  ∑ r, (∑ d, X p d · A r d) · Bt r o)  +  b o.

  A tiled evaluation walks the 8192 contracted columns in 8 tiles of 1024 and the 8192 output columns in 4 tiles of
  2048, adding one tile's partial product at a time.  The only algebra this needs is regrouping of finite sums in a
  commutative monoid: the sum over all columns is the sum over tiles of the sums inside a tile (`sum_tiles`), and the
  sum of the first `n + 1` tiles is a running sum (`upto`).  None of it uses finiteness of an entry, so it holds for
  extended reals as it stands.
-/
import Idealize.ShloMosaic.PureOps.Ideal
import Idealize.ShloMosaic.Lib.ValueIdx

noncomputable section

namespace Cert.LoraSpec

open Idealize.ShloMosaic Idealize.ShloMosaic.ValueIdx

/-! ## Coordinates of tiles -/

/-- Column `j` of contraction tile `k`: column `1024 k + j` of the whole. -/
abbrev colAt (k : Fin 8) (j : Fin 1024) : Fin 8192 := ⟨k.val * 1024 + j.val, by have := k.isLt; have := j.isLt; omega⟩

/-- Column `o` of output tile `i`: column `2048 i + o` of the whole. -/
abbrev outAt (i : Fin 4) (o : Fin 2048) : Fin 8192 := ⟨i.val * 2048 + o.val, by have := i.isLt; have := o.isLt; omega⟩

/-- Row `(p, q)` of the batch of 8 sequences of 16 positions, flattened: row `16 p + q`. -/
abbrev rowAt (p : Fin 8) (q : Fin 16) : Fin 128 := ⟨p.val * 16 + q.val, by have := p.isLt; have := q.isLt; omega⟩

/-! ## Regrouping a sum by tiles -/

section Sums
variable {M : Type*} [AddCommMonoid M]

/-- A sum over the 8192 columns is the sum over the 8 tiles of the sums over each tile's 1024 columns. -/
theorem sum_tiles (f : Fin 8192 → M) : ∑ k : Fin 8, ∑ j : Fin 1024, f (colAt k j) = ∑ d : Fin 8192, f d := by
  rw [← Equiv.sum_comp (finProdFinEquiv : Fin 8 × Fin 1024 ≃ Fin (8 * 1024)) f, Fintype.sum_prod_type]
  refine Finset.sum_congr rfl fun k _ => Finset.sum_congr rfl fun j _ => congrArg f (Fin.ext ?_)
  show k.val * 1024 + j.val = j.val + 1024 * k.val
  omega

/-- The running sum of the tiles' contributions `B 0, …, B n`. -/
def upto (B : Fin 8 → M) (n : ℕ) : M := ∑ k ∈ Finset.univ.filter (fun k : Fin 8 => k.val ≤ n), B k

/-- After the first tile the running sum is that tile's contribution. -/
theorem upto_zero (B : Fin 8 → M) : upto B 0 = B 0 := by
  have e : Finset.univ.filter (fun k : Fin 8 => k.val ≤ 0) = {0} := by
    ext k; simp only [Finset.mem_filter, Finset.mem_univ, true_and, Finset.mem_singleton, Fin.ext_iff]; show k.val ≤ 0 ↔ k.val = 0; omega
  unfold upto; rw [e, Finset.sum_singleton]

/-- One more tile adds its contribution to the running sum. -/
theorem upto_succ (B : Fin 8 → M) (n : ℕ) (h : n + 1 < 8) : upto B (n + 1) = upto B n + B ⟨n + 1, h⟩ := by
  have e : Finset.univ.filter (fun k : Fin 8 => k.val ≤ n + 1)
      = insert (⟨n + 1, h⟩ : Fin 8) (Finset.univ.filter (fun k : Fin 8 => k.val ≤ n)) := by
    ext k
    simp only [Finset.mem_filter, Finset.mem_univ, true_and, Finset.mem_insert, Fin.ext_iff]
    omega
  have hn : (⟨n + 1, h⟩ : Fin 8) ∉ Finset.univ.filter (fun k : Fin 8 => k.val ≤ n) := by
    simp only [Finset.mem_filter, Finset.mem_univ, true_and]; omega
  unfold upto; rw [e, Finset.sum_insert hn, add_comm]

/-- The same step, named by the tile reached: for a tile `k` past the first, the running sum through `k` is the running
    sum through the tile before plus `k`'s contribution. -/
theorem upto_step (B : Fin 8 → M) (k : Fin 8) (hk : k.val ≠ 0) : upto B k.val = upto B (k.val - 1) + B k := by
  obtain ⟨k, hk'⟩ := k
  cases k with
  | zero => exact absurd rfl hk
  | succ n => exact upto_succ B n hk'

/-- After the last tile the running sum is the sum over all tiles. -/
theorem upto_last (B : Fin 8 → M) : upto B 7 = ∑ k : Fin 8, B k := by
  have e : Finset.univ.filter (fun k : Fin 8 => k.val ≤ 7) = Finset.univ := by
    ext k; simp only [Finset.mem_filter, Finset.mem_univ, true_and, iff_true]; have := k.isLt; omega
  unfold upto; rw [e]

/-- So the running sum of per-tile sums, after the last tile, is the sum over all 8192 columns. -/
theorem upto_last_tiles (f : Fin 8192 → M) : upto (fun k => ∑ j : Fin 1024, f (colAt k j)) 7 = ∑ d : Fin 8192, f d := by
  rw [upto_last, sum_tiles]

end Sums

/-! ## The layer, entry by entry -/

/-- The flattened layer: at row `j 0` and column `j 1`, the base product plus the low-rank correction, plus the bias. -/
def layer (X : (⟨2, ![128, 8192]⟩ : Shape).Idx → Ideal .f32) (W : (⟨2, ![8192, 8192]⟩ : Shape).Idx → Ideal .f32)
    (b : (⟨2, ![1, 8192]⟩ : Shape).Idx → Ideal .f32) (A : (⟨2, ![16, 8192]⟩ : Shape).Idx → Ideal .f32)
    (Bt : (⟨2, ![16, 8192]⟩ : Shape).Idx → Ideal .f32) : (⟨2, ![128, 8192]⟩ : Shape).Idx → Ideal .f32 := fun j =>
  (∑ d : Fin 8192, X (ix2 (j 0) d) * W (ix2 (j 1) d)
    + ∑ r : Fin 16, (∑ d : Fin 8192, X (ix2 (j 0) d) * A (ix2 r d)) * Bt (ix2 r (j 1)))
    + b (ix2 (0 : Fin 1) (j 1))

/-- The base product's running sum over contraction tiles `0, …, n`, for output tile `i`: a 128 × 2048 block. -/
def baseUpto (X : (⟨2, ![128, 8192]⟩ : Shape).Idx → Ideal .f32) (W : (⟨2, ![8192, 8192]⟩ : Shape).Idx → Ideal .f32)
    (i : Fin 4) (n : ℕ) : (⟨2, ![128, 2048]⟩ : Shape).Idx → Ideal .f32 := fun y =>
  upto (fun k => ∑ j : Fin 1024, X (ix2 (y 0) (colAt k j)) * W (ix2 (outAt i (y 1)) (colAt k j))) n

/-- The down projection's running sum over contraction tiles `0, …, n`: a 128 × 16 block. -/
def downUpto (X : (⟨2, ![128, 8192]⟩ : Shape).Idx → Ideal .f32) (A : (⟨2, ![16, 8192]⟩ : Shape).Idx → Ideal .f32)
    (n : ℕ) : (⟨2, ![128, 16]⟩ : Shape).Idx → Ideal .f32 := fun y =>
  upto (fun k => ∑ j : Fin 1024, X (ix2 (y 0) (colAt k j)) * A (ix2 (y 1) (colAt k j))) n

/-- After the last contraction tile the base running sum is the whole base product of the block's entry. -/
theorem baseUpto_last (X : (⟨2, ![128, 8192]⟩ : Shape).Idx → Ideal .f32) (W : (⟨2, ![8192, 8192]⟩ : Shape).Idx → Ideal .f32)
    (i : Fin 4) (y : (⟨2, ![128, 2048]⟩ : Shape).Idx) :
    baseUpto X W i 7 y = ∑ d : Fin 8192, X (ix2 (y 0) d) * W (ix2 (outAt i (y 1)) d) :=
  upto_last_tiles fun d => X (ix2 (y 0) d) * W (ix2 (outAt i (y 1)) d)

/-- After the last contraction tile the down projection's running sum is the whole down projection. -/
theorem downUpto_last (X : (⟨2, ![128, 8192]⟩ : Shape).Idx → Ideal .f32) (A : (⟨2, ![16, 8192]⟩ : Shape).Idx → Ideal .f32)
    (y : (⟨2, ![128, 16]⟩ : Shape).Idx) :
    downUpto X A 7 y = ∑ d : Fin 8192, X (ix2 (y 0) d) * A (ix2 (y 1) d) :=
  upto_last_tiles fun d => X (ix2 (y 0) d) * A (ix2 (y 1) d)

end Cert.LoraSpec

end
-- ==== Proof.KernelBlocks.lean ====
/-
  Where each block the body sees sits in the arrays the launch found, coordinate by coordinate.

  The grid has 4 output tiles (of 2048 columns) by 8 contraction tiles (of 1024 columns), walked with the contraction
  tile innermost: point `t` is output tile `t / 8`, contraction tile `t % 8`.  The activations are resident whole and
  the body cuts its own slab out of them; the weight block at `t` is rows `2048 (t/8) + o`, columns `1024 (t%8) + j`;
  the bias and up-projection blocks follow the output tile, the down-projection block the contraction tile.  The three
  arrays the host prepares before the launch are the activations flattened to 128 rows, the bias as one row, and the
  up projection transposed.
-/
import proofs.«133900_j72980084293847_2_alg».proof.Proof.Gen.KernelIdeal.Frame
import proofs.«133900_j72980084293847_2_alg».proof.Proof.KernelPieces
import proofs.«133900_j72980084293847_2_alg».proof.Proof.LoraSpec
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen Cert.LoraSpec

variable {F : FTy → Type} [FloatOps F]
variable (m : (ℓ : Loc nD τ sig) → Buf (Elt F) ℓ)

theorem point_lt (t : Fin cfg0.N) : t.val < 32 := lt_of_lt_of_eq t.isLt (show cfg0.N = 32 from N_0)

/-- The output tile of grid point `t`. -/
abbrev outTile (t : Fin cfg0.N) : Fin 4 := ⟨t.val / 8, by have := point_lt t; omega⟩

/-- The contraction tile of grid point `t`. -/
abbrev redTile (t : Fin cfg0.N) : Fin 8 := ⟨t.val % 8, by omega⟩

/-- The block index of every window at every point, and where the body's slab starts: decided once over the 32 points. -/
theorem index_facts : ∀ t : Fin cfg0.N,
    (win0_0.index t 0 = 0 ∧ win0_0.index t 1 = 0)
    ∧ (win0_1.index t 0 = t.val / 8 ∧ win0_1.index t 1 = t.val % 8)
    ∧ (win0_2.index t 0 = 0 ∧ win0_2.index t 1 = t.val / 8)
    ∧ (win0_3.index t 0 = 0 ∧ win0_3.index t 1 = t.val % 8)
    ∧ (win0_4.index t 0 = 0 ∧ win0_4.index t 1 = t.val / 8)
    ∧ (win0_5.index t 0 = 0 ∧ win0_5.index t 1 = t.val / 8)
    ∧ (k0_off1 (grid0.coords t) 0 = 0 ∧ k0_off1 (grid0.coords t) 1 = t.val % 8 * 1024) :=
  (by decide +kernel : ∀ t : Fin grid0.N,
    (win0_0.index t 0 = 0 ∧ win0_0.index t 1 = 0)
    ∧ (win0_1.index t 0 = t.val / 8 ∧ win0_1.index t 1 = t.val % 8)
    ∧ (win0_2.index t 0 = 0 ∧ win0_2.index t 1 = t.val / 8)
    ∧ (win0_3.index t 0 = 0 ∧ win0_3.index t 1 = t.val % 8)
    ∧ (win0_4.index t 0 = 0 ∧ win0_4.index t 1 = t.val / 8)
    ∧ (win0_5.index t 0 = 0 ∧ win0_5.index t 1 = t.val / 8)
    ∧ (k0_off1 (grid0.coords t) 0 = 0 ∧ k0_off1 (grid0.coords t) 1 = t.val % 8 * 1024))

/-! ## The input blocks at coordinates -/

/-- The slab the body cuts at point `t` out of the resident activations: row `p`, column `j` of the point's
    contraction tile. -/
theorem slab_apply (c : Dev nD) (t : Fin cfg0.N) (p : Fin 128) (j : Fin 1024) :
    Pieces.slab (grid0.coords t) (iblk m c 0 t : Vec F S128x8192 .f32) (ix2 p j)
      = V m c main_v0 (ix2 p (colAt (redTile t) j)) := by
  obtain ⟨⟨h0, h1⟩, -, -, -, -, -, ⟨k0, k1⟩⟩ := index_facts t
  unfold Pieces.slab iblk
  show V m c main_v0 _ = V m c main_v0 _
  congr 1
  funext a
  apply Fin.ext
  match a with
  | ⟨0, _⟩ => show win0_0.index t 0 * 128 + 1 * (k0_off1 (grid0.coords t) 0 + 1 * p.val) = p.val; rw [h0, k0]; omega
  | ⟨1, _⟩ => show win0_0.index t 1 * 8192 + 1 * (k0_off1 (grid0.coords t) 1 + 1 * j.val) = t.val % 8 * 1024 + j.val; rw [h1, k1]; omega

/-- The weight block at point `t`: row `o` of the output tile, column `j` of the contraction tile. -/
theorem weight_apply (c : Dev nD) (t : Fin cfg0.N) (o : Fin 2048) (j : Fin 1024) :
    (iblk m c 1 t : Vec F S2048x1024 .f32) (ix2 o j)
      = V m c main_arg1 (ix2 (outAt (outTile t) o) (colAt (redTile t) j)) := by
  obtain ⟨-, ⟨h0, h1⟩, -⟩ := index_facts t
  unfold iblk
  show V m c main_arg1 _ = V m c main_arg1 _
  congr 1
  funext a
  apply Fin.ext
  match a with
  | ⟨0, _⟩ => show win0_1.index t 0 * 2048 + 1 * o.val = t.val / 8 * 2048 + o.val; rw [h0]; omega
  | ⟨1, _⟩ => show win0_1.index t 1 * 1024 + 1 * j.val = t.val % 8 * 1024 + j.val; rw [h1]; omega

/-- The bias block at point `t`: column `o` of the output tile. -/
theorem bias_apply (c : Dev nD) (t : Fin cfg0.N) (o : Fin 2048) :
    (iblk m c 2 t : Vec F S1x2048 .f32) (ix2 (0 : Fin 1) o) = V m c main_v1 (ix2 (0 : Fin 1) (outAt (outTile t) o)) := by
  obtain ⟨-, -, ⟨h0, h1⟩, -⟩ := index_facts t
  unfold iblk
  show V m c main_v1 _ = V m c main_v1 _
  congr 1
  funext a
  apply Fin.ext
  match a with
  | ⟨0, _⟩ => show win0_2.index t 0 * 1 + 1 * 0 = 0; rw [h0]
  | ⟨1, _⟩ => show win0_2.index t 1 * 2048 + 1 * o.val = t.val / 8 * 2048 + o.val; rw [h1]; omega

/-- The down-projection block at point `t`: row `r`, column `j` of the contraction tile. -/
theorem down_apply (c : Dev nD) (t : Fin cfg0.N) (r : Fin 16) (j : Fin 1024) :
    (iblk m c 3 t : Vec F S16x1024 .f32) (ix2 r j) = V m c main_arg3 (ix2 r (colAt (redTile t) j)) := by
  obtain ⟨-, -, -, ⟨h0, h1⟩, -⟩ := index_facts t
  unfold iblk
  show V m c main_arg3 _ = V m c main_arg3 _
  congr 1
  funext a
  apply Fin.ext
  match a with
  | ⟨0, _⟩ => show win0_3.index t 0 * 16 + 1 * r.val = r.val; rw [h0]; omega
  | ⟨1, _⟩ => show win0_3.index t 1 * 1024 + 1 * j.val = t.val % 8 * 1024 + j.val; rw [h1]; omega

/-- The transposed up-projection block at point `t`: row `r`, column `o` of the output tile. -/
theorem up_apply (c : Dev nD) (t : Fin cfg0.N) (r : Fin 16) (o : Fin 2048) :
    (iblk m c 4 t : Vec F S16x2048 .f32) (ix2 r o) = V m c main_v2 (ix2 r (outAt (outTile t) o)) := by
  obtain ⟨-, -, -, -, ⟨h0, h1⟩, -⟩ := index_facts t
  unfold iblk
  show V m c main_v2 _ = V m c main_v2 _
  congr 1
  funext a
  apply Fin.ext
  match a with
  | ⟨0, _⟩ => show win0_4.index t 0 * 16 + 1 * r.val = r.val; rw [h0]; omega
  | ⟨1, _⟩ => show win0_4.index t 1 * 2048 + 1 * o.val = t.val / 8 * 2048 + o.val; rw [h1]; omega

/-! ## The arrays the host prepares before the launch -/

/-- The activations as the launch finds them: the argument flattened to 128 rows. -/
theorem acts_entry (c : Dev nD) :
    (V m c main_v0 : S128x8192.Idx → Elt F .f32)
      = shapeCast S128x8192 (m ((c : Thread nD τ).loc main_arg0)) shapeCasts_S8x16x8192_S128x8192 := by
  show StableHlo.after hostOps0 (fun b => m (c, b)) (Proc.devRef .tc main_v0) = _
  after_results
  rfl

/-- The bias as the launch finds it: the argument as one row. -/
theorem bias_entry (c : Dev nD) :
    (V m c main_v1 : S1x8192.Idx → Elt F .f32)
      = shapeCast S1x8192 (m ((c : Thread nD τ).loc main_arg2)) shapeCasts_S8192_S1x8192 := by
  show StableHlo.after hostOps0 (fun b => m (c, b)) (Proc.devRef .tc main_v1) = _
  after_results
  rfl

/-- The up projection as the launch finds it: the argument transposed. -/
theorem up_entry (c : Dev nD) :
    (V m c main_v2 : S16x8192.Idx → Elt F .f32)
      = transpose S16x8192 [1, 0] (m ((c : Thread nD τ).loc main_arg4)) transposes_S8192x16_S16x8192_1_0 := by
  show StableHlo.after hostOps0 (fun b => m (c, b)) (Proc.devRef .tc main_v2) = _
  after_results

end Cert.KernelIdeal.Blocks

end
-- ==== Proof.LibTileDot.lean ====
/-
  A tile product into the zero accumulator, read at one output index, at the ideal values and whatever precision
  the operation names: with the contraction running over one axis of extent `K`, the entry is the sum over
  `k : Fin K` of the left operand times the right operand, each read at the index the dimension numbers assign to
  the output index and `k`. The caller names the two operand indices as functions of `k`.
-/
import Idealize.ShloMosaic.Lib.ValueIdx
import Idealize.ShloMosaic.PureOps.Ideal.Laws

noncomputable section

namespace Cert.LibTileDot

open Idealize.ShloMosaic Idealize.ShloMosaic.ValueIdx

/-- The matrix unit's product of two tiles into a zero accumulator, at output index `j`: the sum over the one
    contracted axis, each factor read where the dimension numbers send `j` and `k`. -/
theorem matmul_zero_at {sl sr so : Shape} {φ₁ φ₂ : FTy} (d : DotDims sl sr so) (prec : Option ContractPrecision) (K : ℕ)
    (hr : d.contr.rank = 1) (hs : d.contr.size ⟨0, by omega⟩ = K)
    (lhs : FVec Ideal sl φ₁) (rhs : FVec Ideal sr φ₂) (j : so.Idx)
    (li : Fin K → sl.Idx) (ri : Fin K → sr.Idx)
    (hl : ∀ k, d.lhsIdx j ((contrEquiv1 d K hr hs).symm k) = li k)
    (hri : ∀ k, d.rhsIdx j ((contrEquiv1 d K hr hs).symm k) = ri k) :
    FloatOps.matmul d prec lhs rhs (constant so .f32 0x00000000#32) j = ∑ k : Fin K, lhs (li k) * rhs (ri k) := by
  rw [Ideal.matmul_constant_zero_apply, ← Equiv.sum_comp (contrEquiv1 d K hr hs).symm]
  exact Finset.sum_congr rfl fun k _ => by rw [hl k, hri k]

end Cert.LibTileDot

end
-- ==== Proof.KernelPayloads.lean ====
/-
  The body's arithmetic at the exact (extended real) values, one entry at a time.

  A change of float format is the identity there and a matrix-unit product into a zero accumulator is the plain sum of
  products over the contracted axis, so: a running sum's update at entry `(p, q)` adds `∑ j, slab p j · tile q j` (both
  tiles are contracted along their second axis); the epilogue at `(p, o)` is the base sum there, plus
  `∑ r, down p r · up r o`, plus the bias row at `o`; and the reset block is zero everywhere.
-/
import proofs.«133900_j72980084293847_2_alg».proof.Proof.Gen.KernelIdeal.Skeleton
import proofs.«133900_j72980084293847_2_alg».proof.Proof.LibTileDot
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Payloads

open Cert.KernelIdeal Cert.KernelIdeal.Gen

/-! ## Which operand entries a product's entry reads -/

theorem base_lhs_row (i : S128x2048.Idx) (q : dot_S128x1024_S2048x1024_S128x2048_1_1_0_0_n_n.contr.Idx) : (dot_S128x1024_S2048x1024_S128x2048_1_1_0_0_n_n.lhsIdx i q 0).val = (i 0).val := by
  unfold DotDims.lhsIdx
  rw [dif_neg (show ¬(0 : Fin S128x1024.rank) ∈ dot_S128x1024_S2048x1024_S128x2048_1_1_0_0_n_n.lhsBatch by decide), dif_pos (show (0 : Fin S128x1024.rank) ∈ dot_S128x1024_S2048x1024_S128x2048_1_1_0_0_n_n.lhsNonContracting by decide)]
  rfl
theorem base_rhs_row (i : S128x2048.Idx) (q : dot_S128x1024_S2048x1024_S128x2048_1_1_0_0_n_n.contr.Idx) : (dot_S128x1024_S2048x1024_S128x2048_1_1_0_0_n_n.rhsIdx i q 0).val = (i 1).val := by
  unfold DotDims.rhsIdx
  rw [dif_neg (show ¬(0 : Fin S2048x1024.rank) ∈ dot_S128x1024_S2048x1024_S128x2048_1_1_0_0_n_n.rhsBatch by decide), dif_pos (show (0 : Fin S2048x1024.rank) ∈ dot_S128x1024_S2048x1024_S128x2048_1_1_0_0_n_n.rhsNonContracting by decide)]
  rfl
theorem down_lhs_row (i : S128x16.Idx) (q : dot_S128x1024_S16x1024_S128x16_1_1_0_0_n_n.contr.Idx) : (dot_S128x1024_S16x1024_S128x16_1_1_0_0_n_n.lhsIdx i q 0).val = (i 0).val := by
  unfold DotDims.lhsIdx
  rw [dif_neg (show ¬(0 : Fin S128x1024.rank) ∈ dot_S128x1024_S16x1024_S128x16_1_1_0_0_n_n.lhsBatch by decide), dif_pos (show (0 : Fin S128x1024.rank) ∈ dot_S128x1024_S16x1024_S128x16_1_1_0_0_n_n.lhsNonContracting by decide)]
  rfl
theorem down_rhs_row (i : S128x16.Idx) (q : dot_S128x1024_S16x1024_S128x16_1_1_0_0_n_n.contr.Idx) : (dot_S128x1024_S16x1024_S128x16_1_1_0_0_n_n.rhsIdx i q 0).val = (i 1).val := by
  unfold DotDims.rhsIdx
  rw [dif_neg (show ¬(0 : Fin S16x1024.rank) ∈ dot_S128x1024_S16x1024_S128x16_1_1_0_0_n_n.rhsBatch by decide), dif_pos (show (0 : Fin S16x1024.rank) ∈ dot_S128x1024_S16x1024_S128x16_1_1_0_0_n_n.rhsNonContracting by decide)]
  rfl
theorem up_lhs_row (i : S128x2048.Idx) (q : dot_S128x16_S16x2048_S128x2048_1_0_0_1_n_n.contr.Idx) : (dot_S128x16_S16x2048_S128x2048_1_0_0_1_n_n.lhsIdx i q 0).val = (i 0).val := by
  unfold DotDims.lhsIdx
  rw [dif_neg (show ¬(0 : Fin S128x16.rank) ∈ dot_S128x16_S16x2048_S128x2048_1_0_0_1_n_n.lhsBatch by decide), dif_pos (show (0 : Fin S128x16.rank) ∈ dot_S128x16_S16x2048_S128x2048_1_0_0_1_n_n.lhsNonContracting by decide)]
  rfl
theorem up_rhs_col (i : S128x2048.Idx) (q : dot_S128x16_S16x2048_S128x2048_1_0_0_1_n_n.contr.Idx) : (dot_S128x16_S16x2048_S128x2048_1_0_0_1_n_n.rhsIdx i q 1).val = (i 1).val := by
  unfold DotDims.rhsIdx
  rw [dif_neg (show ¬(1 : Fin S16x2048.rank) ∈ dot_S128x16_S16x2048_S128x2048_1_0_0_1_n_n.rhsBatch by decide), dif_pos (show (1 : Fin S16x2048.rank) ∈ dot_S128x16_S16x2048_S128x2048_1_0_0_1_n_n.rhsNonContracting by decide)]
  rfl

/-! ## The payloads -/

/-- The block the first tile resets the base running sum to: zero everywhere. -/
theorem reset_base_apply (y : S128x2048.Idx) : k0_pay1 (F := Ideal) y = 0 := by
  unfold k0_pay1
  rw [shapeCast_self]
  exact Ideal.ofBits_zero_f32

/-- The block the first tile resets the down projection's running sum to: zero everywhere. -/
theorem reset_down_apply (y : S128x16.Idx) : k0_pay2 (F := Ideal) y = 0 := by
  unfold k0_pay2
  rw [shapeCast_self]
  exact Ideal.ofBits_zero_f32

/-- Narrowing the slab to the matrix unit's input format changes no value. -/
theorem narrow_apply (v6 : Vec Ideal S128x1024 .f32) (y : S128x1024.Idx) : k0_pay3 (F := Ideal) v6 y = v6 y := by
  unfold k0_pay3
  rw [shapeCast_self]
  rfl

/-- The base running sum's update at entry `(p, q)`: what was there plus the slab's row `p` times the weight tile's row `q`. -/
theorem base_update_apply (v6 : Vec Ideal S128x1024 .f32) (v9 : Vec Ideal S2048x1024 .f32) (v11 : Vec Ideal S128x2048 .f32)
    (p : Fin 128) (q : Fin 2048) :
    k0_pay4 (F := Ideal) v6 v9 v11 (ix2 p q) = v11 (ix2 p q) + ∑ j : Fin 1024, v6 (ix2 p j) * v9 (ix2 q j) := by
  unfold k0_pay4
  rw [shapeCast_self, addf_apply]
  congr 1
  refine (Cert.LibTileDot.matmul_zero_at dot_S128x1024_S2048x1024_S128x2048_1_1_0_0_n_n none 1024 rfl rfl _ _ (ix2 p q) (fun j => ix2 p j) (fun j => ix2 q j) (fun k => ?_) (fun k => ?_)).trans ?_
  · have hk := contrEquiv1_symm_val dot_S128x1024_S2048x1024_S128x2048_1_1_0_0_n_n 1024 rfl rfl k
    refine funext fun a => Fin.ext ?_
    match a with
    | ⟨0, _⟩ => exact base_lhs_row _ _
    | ⟨1, _⟩ => exact (dot_S128x1024_S2048x1024_S128x2048_1_1_0_0_n_n.lhsIdx_val_of_single rfl _ _).trans hk
  · have hk := contrEquiv1_symm_val dot_S128x1024_S2048x1024_S128x2048_1_1_0_0_n_n 1024 rfl rfl k
    refine funext fun a => Fin.ext ?_
    match a with
    | ⟨0, _⟩ => exact base_rhs_row _ _
    | ⟨1, _⟩ => exact (dot_S128x1024_S2048x1024_S128x2048_1_1_0_0_n_n.rhsIdx_val_of_single rfl _ _).trans hk
  · exact Finset.sum_congr rfl fun j _ => by rw [narrow_apply]; rfl

/-- The down projection's update at entry `(p, r)`: what was there plus the slab's row `p` times its tile's row `r`. -/
theorem down_update_apply (v6 : Vec Ideal S128x1024 .f32) (v17 : Vec Ideal S16x1024 .f32) (v19 : Vec Ideal S128x16 .f32)
    (p : Fin 128) (r : Fin 16) :
    k0_pay5 (F := Ideal) v6 v17 v19 (ix2 p r) = v19 (ix2 p r) + ∑ j : Fin 1024, v6 (ix2 p j) * v17 (ix2 r j) := by
  unfold k0_pay5
  rw [shapeCast_self, addf_apply]
  congr 1
  refine (Cert.LibTileDot.matmul_zero_at dot_S128x1024_S16x1024_S128x16_1_1_0_0_n_n none 1024 rfl rfl _ _ (ix2 p r) (fun j => ix2 p j) (fun j => ix2 r j) (fun k => ?_) (fun k => ?_)).trans ?_
  · have hk := contrEquiv1_symm_val dot_S128x1024_S16x1024_S128x16_1_1_0_0_n_n 1024 rfl rfl k
    refine funext fun a => Fin.ext ?_
    match a with
    | ⟨0, _⟩ => exact down_lhs_row _ _
    | ⟨1, _⟩ => exact (dot_S128x1024_S16x1024_S128x16_1_1_0_0_n_n.lhsIdx_val_of_single rfl _ _).trans hk
  · have hk := contrEquiv1_symm_val dot_S128x1024_S16x1024_S128x16_1_1_0_0_n_n 1024 rfl rfl k
    refine funext fun a => Fin.ext ?_
    match a with
    | ⟨0, _⟩ => exact down_rhs_row _ _
    | ⟨1, _⟩ => exact (dot_S128x1024_S16x1024_S128x16_1_1_0_0_n_n.rhsIdx_val_of_single rfl _ _).trans hk
  · exact Finset.sum_congr rfl fun j _ => by rw [narrow_apply]; rfl

/-- The epilogue at entry `(p, o)`: the base sum there, plus the down projection's row `p` times the up-projection
    tile's column `o`, plus the bias row at `o`. -/
theorem epilogue_apply (v28 : Vec Ideal S128x16 .f32) (v29 : Vec Ideal S16x2048 .f32) (v32 : Vec Ideal S128x2048 .f32)
    (v34 : Vec Ideal S1x2048 .f32) (p : Fin 128) (o : Fin 2048) :
    k0_pay6 (F := Ideal) v28 v29 v32 v34 (ix2 p o)
      = (v32 (ix2 p o) + ∑ r : Fin 16, v28 (ix2 p r) * v29 (ix2 r o)) + v34 (ix2 (0 : Fin 1) o) := by
  unfold k0_pay6
  rw [addf_apply, addf_apply, shapeCast_self, shapeCast_self, broadcastTo_1b_ab_apply]
  congr 2
  refine Cert.LibTileDot.matmul_zero_at dot_S128x16_S16x2048_S128x2048_1_0_0_1_n_n (some .fp32) 16 rfl rfl _ _ (ix2 p o) (fun r => ix2 p r) (fun r => ix2 r o) (fun k => ?_) (fun k => ?_)
  · have hk := contrEquiv1_symm_val dot_S128x16_S16x2048_S128x2048_1_0_0_1_n_n 16 rfl rfl k
    refine funext fun a => Fin.ext ?_
    match a with
    | ⟨0, _⟩ => exact up_lhs_row _ _
    | ⟨1, _⟩ => exact (dot_S128x16_S16x2048_S128x2048_1_0_0_1_n_n.lhsIdx_val_of_single rfl _ _).trans hk
  · have hk := contrEquiv1_symm_val dot_S128x16_S16x2048_S128x2048_1_0_0_1_n_n 16 rfl rfl k
    refine funext fun a => Fin.ext ?_
    match a with
    | ⟨0, _⟩ => exact (dot_S128x16_S16x2048_S128x2048_1_0_0_1_n_n.rhsIdx_val_of_single rfl _ _).trans hk
    | ⟨1, _⟩ => exact up_rhs_col _ _

end Cert.KernelIdeal.Payloads

end
-- ==== Proof.KernelRunning.lean ====
/-
  The two running sums, point by point, and the output block at a tile's last point — at the exact values.

  Walking the grid with the contraction tile innermost, after the point of output tile `i` and contraction tile `k`
  the first scratch buffer holds, at `(p, q)`, the sum over contraction tiles `0, …, k` of `∑ j, X p (1024 k' + j) ·
  W (2048 i + q) (1024 k' + j)`, and the second holds the same for the down projection.  By induction on the point:
  tile `0` resets to zero and adds its own contribution (`0 + a = a`), a later tile adds to what the point before
  left.  At tile `7` both sums are complete — the sums over all 8192 columns — and the block written is the layer's
  entry for row `p` and column `2048 i + o`.
-/
import proofs.«133900_j72980084293847_2_alg».proof.Proof.KernelBlocks
import proofs.«133900_j72980084293847_2_alg».proof.Proof.KernelPayloads

noncomputable section

open Idealize.ShloMosaic Idealize.ShloMosaic.TcCoe Idealize.SL.Sem Idealize.ShloMosaic.ValueIdx

namespace Cert.KernelIdeal.Running

open Cert.KernelIdeal Cert.KernelIdeal.Gen Cert.LoraSpec Cert.KernelIdeal.Blocks

variable (m : (ℓ : Loc nD τ sig) → Buf (Elt Ideal) ℓ)

/-- The five arrays as the launch finds them on core `c`. -/
abbrev acts (c : Dev nD) : S128x8192.Idx → Ideal .f32 := V m c main_v0
abbrev weight (c : Dev nD) : S8192x8192.Idx → Ideal .f32 := V m c main_arg1
abbrev bias (c : Dev nD) : S1x8192.Idx → Ideal .f32 := V m c main_v1
abbrev down (c : Dev nD) : S16x8192.Idx → Ideal .f32 := V m c main_arg3
abbrev up (c : Dev nD) : S16x8192.Idx → Ideal .f32 := V m c main_v2

/-- One tile's contribution to the base running sum, from the blocks at point `t`. -/
theorem base_contrib (c : Dev nD) (t : Fin cfg0.N) (p : Fin 128) (q : Fin 2048) :
    ∑ j : Fin 1024, Pieces.slab (grid0.coords t) (iblk m c 0 t : Vec Ideal S128x8192 .f32) (ix2 p j) * (iblk m c 1 t : Vec Ideal S2048x1024 .f32) (ix2 q j)
      = ∑ j : Fin 1024, acts m c (ix2 p (colAt (redTile t) j)) * weight m c (ix2 (outAt (outTile t) q) (colAt (redTile t) j)) :=
  Finset.sum_congr rfl fun j _ => congrArg₂ (· * ·) (slab_apply m c t p j) (weight_apply m c t q j)

/-- One tile's contribution to the down projection's running sum, from the blocks at point `t`. -/
theorem down_contrib (c : Dev nD) (t : Fin cfg0.N) (p : Fin 128) (r : Fin 16) :
    ∑ j : Fin 1024, Pieces.slab (grid0.coords t) (iblk m c 0 t : Vec Ideal S128x8192 .f32) (ix2 p j) * (iblk m c 3 t : Vec Ideal S16x1024 .f32) (ix2 r j)
      = ∑ j : Fin 1024, acts m c (ix2 p (colAt (redTile t) j)) * down m c (ix2 r (colAt (redTile t) j)) :=
  Finset.sum_congr rfl fun j _ => congrArg₂ (· * ·) (slab_apply m c t p j) (down_apply m c t r j)

/-- The base update at a point past a tile's first, over a running sum already in closed form. -/
theorem base_step (c : Dev nD) (t : Fin cfg0.N) (hk : (redTile t).val ≠ 0) (prev : Vec Ideal S128x2048 .f32)
    (hprev : prev = baseUpto (acts m c) (weight m c) (outTile t) ((redTile t).val - 1)) :
    k0_pay4 (F := Ideal) (Pieces.slab (grid0.coords t) (iblk m c 0 t : Vec Ideal S128x8192 .f32)) (iblk m c 1 t : Vec Ideal S2048x1024 .f32) prev
      = baseUpto (acts m c) (weight m c) (outTile t) (redTile t).val := by
  subst hprev
  funext y
  obtain ⟨p, q, rfl⟩ : ∃ (p : Fin 128) (q : Fin 2048), y = ix2 p q := ⟨y 0, y 1, eq_ix2 y⟩
  refine (Payloads.base_update_apply (Pieces.slab (grid0.coords t) (iblk m c 0 t : Vec Ideal S128x8192 .f32)) (iblk m c 1 t : Vec Ideal S2048x1024 .f32) _ p q).trans ?_
  rw [base_contrib m c t p q]
  exact (upto_step (fun k => ∑ j : Fin 1024, acts m c (ix2 p (colAt k j)) * weight m c (ix2 (outAt (outTile t) q) (colAt k j))) (redTile t) hk).symm

/-- The down projection's update at a point past a tile's first, over a running sum already in closed form. -/
theorem down_step (c : Dev nD) (t : Fin cfg0.N) (hk : (redTile t).val ≠ 0) (prev : Vec Ideal S128x16 .f32)
    (hprev : prev = downUpto (acts m c) (down m c) ((redTile t).val - 1)) :
    k0_pay5 (F := Ideal) (Pieces.slab (grid0.coords t) (iblk m c 0 t : Vec Ideal S128x8192 .f32)) (iblk m c 3 t : Vec Ideal S16x1024 .f32) prev
      = downUpto (acts m c) (down m c) (redTile t).val := by
  subst hprev
  funext y
  obtain ⟨p, r, rfl⟩ : ∃ (p : Fin 128) (r : Fin 16), y = ix2 p r := ⟨y 0, y 1, eq_ix2 y⟩
  refine (Payloads.down_update_apply (Pieces.slab (grid0.coords t) (iblk m c 0 t : Vec Ideal S128x8192 .f32)) (iblk m c 3 t : Vec Ideal S16x1024 .f32) _ p r).trans ?_
  rw [down_contrib m c t p r]
  exact (upto_step (fun k => ∑ j : Fin 1024, acts m c (ix2 p (colAt k j)) * down m c (ix2 r (colAt k j))) (redTile t) hk).symm

/-- The base update at a tile's first point: zero plus the first contribution. -/
theorem base_start (c : Dev nD) (t : Fin cfg0.N) (hk : (redTile t).val = 0) :
    k0_pay4 (F := Ideal) (Pieces.slab (grid0.coords t) (iblk m c 0 t : Vec Ideal S128x8192 .f32)) (iblk m c 1 t : Vec Ideal S2048x1024 .f32) (k0_pay1 (F := Ideal))
      = baseUpto (acts m c) (weight m c) (outTile t) (redTile t).val := by
  funext y
  obtain ⟨p, q, rfl⟩ : ∃ (p : Fin 128) (q : Fin 2048), y = ix2 p q := ⟨y 0, y 1, eq_ix2 y⟩
  refine (Payloads.base_update_apply (Pieces.slab (grid0.coords t) (iblk m c 0 t : Vec Ideal S128x8192 .f32)) (iblk m c 1 t : Vec Ideal S2048x1024 .f32) _ p q).trans ?_
  rw [base_contrib m c t p q, Payloads.reset_base_apply, zero_add]
  have e : redTile t = 0 := Fin.ext hk
  show _ = upto (fun k => ∑ j : Fin 1024, acts m c (ix2 p (colAt k j)) * weight m c (ix2 (outAt (outTile t) q) (colAt k j))) (redTile t).val
  rw [hk, upto_zero, e]

/-- The down projection's update at a tile's first point: zero plus the first contribution. -/
theorem down_start (c : Dev nD) (t : Fin cfg0.N) (hk : (redTile t).val = 0) :
    k0_pay5 (F := Ideal) (Pieces.slab (grid0.coords t) (iblk m c 0 t : Vec Ideal S128x8192 .f32)) (iblk m c 3 t : Vec Ideal S16x1024 .f32) (k0_pay2 (F := Ideal))
      = downUpto (acts m c) (down m c) (redTile t).val := by
  funext y
  obtain ⟨p, r, rfl⟩ : ∃ (p : Fin 128) (r : Fin 16), y = ix2 p r := ⟨y 0, y 1, eq_ix2 y⟩
  refine (Payloads.down_update_apply (Pieces.slab (grid0.coords t) (iblk m c 0 t : Vec Ideal S128x8192 .f32)) (iblk m c 3 t : Vec Ideal S16x1024 .f32) _ p r).trans ?_
  rw [down_contrib m c t p r, Payloads.reset_down_apply, zero_add]
  have e : redTile t = 0 := Fin.ext hk
  show _ = upto (fun k => ∑ j : Fin 1024, acts m c (ix2 p (colAt k j)) * down m c (ix2 r (colAt k j))) (redTile t).val
  rw [hk, upto_zero, e]

/-! ## The induction over the grid's points -/

/-- After the body at point `n` the two scratch buffers hold the running sums through the point's contraction tile. -/
theorem running (c : Dev nD) : ∀ (n : ℕ) (h : n < cfg0.N),
    (outsAt0 m c n h).2.1 = baseUpto (acts m c) (weight m c) (outTile ⟨n, h⟩) (n % 8)
    ∧ (outsAt0 m c n h).2.2 = downUpto (acts m c) (down m c) (n % 8) := by
  intro n
  induction n using Nat.strong_induction_on with
  | _ n ih =>
    intro h
    have hN : n < 32 := lt_of_lt_of_eq h (show cfg0.N = 32 from N_0)
    by_cases h0 : n % 8 = 0
    · have h1 : ¬n % 8 = 7 := by omega
      have e := outsAt0_A m c ⟨n, h⟩ h0 h1
      constructor
      · refine (congrArg (fun x => x.2.1) e).trans ?_
        rw [Pieces.base_first]
        exact base_start m c ⟨n, h⟩ h0
      · refine (congrArg (fun x => x.2.2) e).trans ?_
        rw [Pieces.down_first]
        exact down_start m c ⟨n, h⟩ h0
    · have hp : n - 1 < cfg0.N := Nat.lt_of_le_of_lt (Nat.sub_le _ _) h
      obtain ⟨ib, id⟩ := ih (n - 1) (by omega) hp
      have et : outTile ⟨n - 1, hp⟩ = outTile ⟨n, h⟩ := Fin.ext (by show (n - 1) / 8 = n / 8; omega)
      have ek : (n - 1) % 8 = n % 8 - 1 := by omega
      rw [et, ek] at ib
      rw [ek] at id
      by_cases h1 : n % 8 = 7
      · have e := outsAt0_C m c ⟨n, h⟩ h0 h1
        constructor
        · refine (congrArg (fun x => x.2.1) e).trans ?_
          rw [Pieces.base_last]
          exact base_step m c ⟨n, h⟩ h0 _ ib
        · refine (congrArg (fun x => x.2.2) e).trans ?_
          rw [Pieces.down_last]
          exact down_step m c ⟨n, h⟩ h0 _ id
      · have e := outsAt0_B m c ⟨n, h⟩ h0 h1
        constructor
        · refine (congrArg (fun x => x.2.1) e).trans ?_
          rw [Pieces.base_mid]
          exact base_step m c ⟨n, h⟩ h0 _ ib
        · refine (congrArg (fun x => x.2.2) e).trans ?_
          rw [Pieces.down_mid]
          exact down_step m c ⟨n, h⟩ h0 _ id

/-! ## The block written at a tile's last point -/

/-- The epilogue over the two completed sums is the layer's entry: row `p`, column `o` of the point's output tile. -/
theorem epilogue_value (c : Dev nD) (t : Fin cfg0.N) (sb : Vec Ideal S128x2048 .f32) (sd : Vec Ideal S128x16 .f32)
    (hb : sb = baseUpto (acts m c) (weight m c) (outTile t) 7) (hd : sd = downUpto (acts m c) (down m c) 7) :
    k0_pay6 (F := Ideal) sd (iblk m c 4 t : Vec Ideal S16x2048 .f32) sb (iblk m c 2 t : Vec Ideal S1x2048 .f32)
      = fun y => layer (acts m c) (weight m c) (bias m c) (down m c) (up m c) (ix2 (y 0) (outAt (outTile t) (y 1))) := by
  subst hb hd
  funext y
  obtain ⟨p, o, rfl⟩ : ∃ (p : Fin 128) (o : Fin 2048), y = ix2 p o := ⟨y 0, y 1, eq_ix2 y⟩
  refine (Payloads.epilogue_apply _ (iblk m c 4 t : Vec Ideal S16x2048 .f32) _ (iblk m c 2 t : Vec Ideal S1x2048 .f32) p o).trans ?_
  rw [baseUpto_last, bias_apply m c t o]
  show (_ + ∑ r : Fin 16, downUpto (acts m c) (down m c) 7 (ix2 p r) * (iblk m c 4 t : Vec Ideal S16x2048 .f32) (ix2 r o)) + _ = _
  have es : ∀ r : Fin 16, downUpto (acts m c) (down m c) 7 (ix2 p r) * (iblk m c 4 t : Vec Ideal S16x2048 .f32) (ix2 r o)
      = (∑ d : Fin 8192, acts m c (ix2 p d) * down m c (ix2 r d)) * up m c (ix2 r (outAt (outTile t) o)) := fun r => by
    rw [downUpto_last, up_apply m c t r o]
  rw [Finset.sum_congr rfl fun r _ => es r]
  rfl

/-- At the last point of an output tile the block left in the output's staging buffer is the layer's block. -/
theorem out_block (c : Dev nD) (t : Fin cfg0.N) (h7 : t.val % 8 = 7) :
    (outsAt0 m c t.val t.isLt).1
      = fun y => layer (acts m c) (weight m c) (bias m c) (down m c) (up m c) (ix2 (y 0) (outAt (outTile t) (y 1))) := by
  have h0 : ¬t.val % 8 = 0 := by omega
  have e := outsAt0_C m c t h0 h7
  obtain ⟨rb, rd⟩ := running m c t.val t.isLt
  rw [h7] at rb rd
  have rb' := (congrArg (fun x => x.2.1) e).symm.trans rb
  have rd' := (congrArg (fun x => x.2.2) e).symm.trans rd
  rw [Pieces.base_last] at rb'
  rw [Pieces.down_last] at rd'
  refine (congrArg (fun x => x.1) e).trans ?_
  rw [Pieces.out_last]
  exact epilogue_value m c t _ _ rb' rd'

end Cert.KernelIdeal.Running

end
-- ==== Proof.KernelValue.lean ====
/-
  From the blocks written at each output tile's last point to the whole result, and through the final reshape.

  Output tile `i` is written back once, after its eighth contraction tile, and holds the layer's columns
  `2048 i, …, 2048 i + 2047` for all 128 rows; the four tiles cover all 8192 columns, so the region's result array is
  the flattened layer everywhere.  The host then reads it back as 8 × 16 × 8192.
-/
import proofs.«133900_j72980084293847_2_alg».proof.Proof.KernelRunning
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.LoraSpec Cert.KernelIdeal.Blocks Cert.KernelIdeal.Running

variable (m : (ℓ : Loc nD τ sig) → Buf (Elt Ideal) ℓ) (ρ : Dev nD → PrngReg)

/-- The flattened layer of the arrays the launch finds on core `c`. -/
abbrev flat (c : Dev nD) : S128x8192.Idx → Ideal .f32 :=
  layer (acts m c) (weight m c) (bias m c) (down m c) (up m c)

/-- What a point that writes back writes: its block of the flattened layer. -/
theorem flushed_eq (c : Dev nD) (t : Fin cfg0.N) (hf : (cfg0.win 5).flush t = true) :
    (dats m 0 c).flushed 5 t = ((cfg0.win 5).blk t).view.read (Elt Ideal) (flat m c) := by
  have h7 : t.val % 8 = 7 := (flush0_5 t).mp hf
  obtain ⟨-, -, -, -, -, ⟨i0, i1⟩, -⟩ := index_facts t
  show (cfg0.win 5).cut (grid0.coords t) ((dats m 0 c).after 5 t) = _
  rw [after0_5, out_block m c t h7]
  funext y
  show flat m c (ix2 (y 0) (outAt (outTile t) (y 1))) = flat m c (((cfg0.win 5).blk t).view.emb y)
  congr 1
  funext a
  apply Fin.ext
  match a with
  | ⟨0, _⟩ => show (y 0).val = win0_5.index t 0 * 128 + 1 * (y 0).val; rw [i0]; omega
  | ⟨1, _⟩ => show t.val / 8 * 2048 + (y 1).val = win0_5.index t 1 * 2048 + 1 * (y 1).val; rw [i1]; omega

/-- An entry of the result lies in point `t`'s block iff each coordinate is in the block's range. -/
theorem mem_block (t : Fin cfg0.N) (i : S128x8192.Idx) :
    i ∈ ((cfg0.win 5).blk t).view.set ↔ ∀ a : Fin 2, win0_5.index t a * S128x2048.size a ≤ (i a).val ∧ (i a).val < win0_5.index t a * S128x2048.size a + S128x2048.size a := by
  show i ∈ ((View.whole main_v3).slice (win0_5.rect t)).set ↔ _
  rw [View.set_slice_whole, Rect.mem_set_unit]
  exact Iff.rfl

/-- Every entry is in the block of the last point of its column's output tile. -/
theorem covered (i : S128x8192.Idx) :
    ∃ t : Fin cfg0.N, (cfg0.win 5).flush t = true ∧ i ∈ ((cfg0.win 5).blk t).view.set := by
  have b0 : (i 0).val < 128 := (i 0).isLt
  have b1 : (i 1).val < 8192 := (i 1).isLt
  have hN : cfg0.N = 32 := N_0
  have hlt : (i 1).val / 2048 * 8 + 7 < cfg0.N := by rw [hN]; omega
  obtain ⟨-, -, -, -, -, ⟨i0, i1⟩, -⟩ := index_facts ⟨(i 1).val / 2048 * 8 + 7, hlt⟩
  refine ⟨⟨(i 1).val / 2048 * 8 + 7, hlt⟩, (flush0_5 _).mpr (by show ((i 1).val / 2048 * 8 + 7) % 8 = 7; omega), ?_⟩
  rw [mem_block]
  intro a
  match a with
  | ⟨0, _⟩ =>
    show win0_5.index ⟨(i 1).val / 2048 * 8 + 7, hlt⟩ 0 * 128 ≤ (i 0).val ∧ (i 0).val < win0_5.index ⟨(i 1).val / 2048 * 8 + 7, hlt⟩ 0 * 128 + 128
    rw [i0]; omega
  | ⟨1, _⟩ =>
    show win0_5.index ⟨(i 1).val / 2048 * 8 + 7, hlt⟩ 1 * 2048 ≤ (i 1).val ∧ (i 1).val < win0_5.index ⟨(i 1).val / 2048 * 8 + 7, hlt⟩ 1 * 2048 + 2048
    rw [i1]
    show ((i 1).val / 2048 * 8 + 7) / 8 * 2048 ≤ (i 1).val ∧ (i 1).val < ((i 1).val / 2048 * 8 + 7) / 8 * 2048 + 2048
    omega

/-- So the region's result array ends holding the flattened layer. -/
theorem region_result (c : Dev nD) : (dats m 0 c).arrAt 5 cfg0.N = flat m c :=
  (dats m 0 c).arrAt_eq_of_cover 5 (flat m c) (flushed_eq m c) covered

/-- The program's result: the host's final reshape of the region's result. -/
theorem tail_result (c : Dev nD) :
    Pipeline.afterTail₀ cfgs (dats m) 0 (V0 m) [hostOps1] c main_v4
      = shapeCast S8x16x8192 (flat m c) shapeCasts_S128x8192_S8x16x8192 := by
  unfold Pipeline.afterTail₀
  show StableHlo.after hostOps1 _ (Proc.devRef .tc main_v4) = _
  after_results
  rw [show Pipeline.withArrays (cfgs 0).spec c (V0 m c) (fun w => (dats m 0 c).arrAt w (cfgs 0).N) (Proc.tc.devRef main_v3) = flat m c
    from (Pipeline.withArrays_arr spec0 launch0.win.arr_inj c _ _ 5).trans (region_result m c)]
  rfl

/-! ## The arrays the launch finds, in terms of the arguments -/

/-- The program's result as a function of the argument arrays alone: the flattened layer of the activations
    flattened, the weight, the bias as a row, the down projection and the up projection transposed, read back in
    three axes. -/
abbrev value (c : Dev nD) : S8x16x8192.Idx → Ideal .f32 :=
  shapeCast S8x16x8192
    (layer (shapeCast S128x8192 (m ((c : Thread nD τ).loc main_arg0)) shapeCasts_S8x16x8192_S128x8192)
      (m ((c : Thread nD τ).loc main_arg1))
      (shapeCast S1x8192 (m ((c : Thread nD τ).loc main_arg2)) shapeCasts_S8192_S1x8192)
      (m ((c : Thread nD τ).loc main_arg3))
      (transpose S16x8192 [1, 0] (m ((c : Thread nD τ).loc main_arg4)) transposes_S8192x16_S16x8192_1_0))
    shapeCasts_S128x8192_S8x16x8192

theorem flat_eq (c : Dev nD) :
    flat m c = layer (shapeCast S128x8192 (m ((c : Thread nD τ).loc main_arg0)) shapeCasts_S8x16x8192_S128x8192)
      (m ((c : Thread nD τ).loc main_arg1))
      (shapeCast S1x8192 (m ((c : Thread nD τ).loc main_arg2)) shapeCasts_S8192_S1x8192)
      (m ((c : Thread nD τ).loc main_arg3))
      (transpose S16x8192 [1, 0] (m ((c : Thread nD τ).loc main_arg4)) transposes_S8192x16_S16x8192_1_0) := by
  unfold flat acts weight bias down up
  rw [acts_entry, bias_entry, up_entry, V_main_arg1, V_main_arg3]

/-! ## The run, read -/

/-- Every weakly fair execution of the idealized kernel program terminates with its result at `value` of the argument
    arrays and the arguments unchanged. -/
theorem run : θ_run defs (onTc (τ := τ) (main (F := Ideal))) ⟨m, fun _ => 0, ρ⟩ fun r => ∀ c : Dev nD,
      r.2.mem ((c.tc : Thread nD τ).loc main_v4) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v4 (Pipeline.mem_restRefs_of main_v4 (by decide) (by decide))).trans
        ((tail_result m c).trans (by rw [flat_eq])),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.Result

end
-- ==== Proof.RefValue.lean ====
/-
  The reference, entry by entry, is the flattened layer read back in three axes.

  The reference contracts the activations `x` (8 × 16 × 8192) with the weight and adds the bias, then adds the
  low-rank path: `x` contracted with the down projection, the result contracted with the up projection.  At entry
  `(p, q, o)` that is `(∑ d, x p q d · W o d + b o) + ∑ r, (∑ d, x p q d · A r d) · B o r`.  The flattened layer at row
  `16 p + q`, column `o`, over the activations flattened, the bias as a row and the up projection transposed, is the
  same three terms with the last two added in the other order; addition of extended reals is commutative and
  associative, so the two agree with no condition on the entries.
-/
import proofs.«133900_j72980084293847_2_alg».proof.Proof.Gen.ReferenceIdeal.Read
import proofs.«133900_j72980084293847_2_alg».proof.Proof.LoraSpec
import Idealize.ShloMosaic.Lib.Pipeline.Value
import Idealize.ShloMosaic.Lib.ValueIdx
import Idealize.ShloMosaic.Lib.ValueLayout

noncomputable section

open Idealize.ShloMosaic Idealize.ShloMosaic.ValueIdx

namespace Cert.ReferenceIdeal.RefValue

open Cert.ReferenceIdeal Cert.ReferenceIdeal.Read Cert.LoraSpec

/-- Flattening the two leading axes: row `16 p + q`, column `d` of the flattened activations is entry `(p, q, d)`. -/
theorem flatten_apply {α : Type} (x : (⟨3, ![8, 16, 8192]⟩ : Shape).Idx → α)
    (h : (⟨3, ![8, 16, 8192]⟩ : Shape).ShapeCasts ⟨2, ![128, 8192]⟩) (p : Fin 8) (q : Fin 16) (d : Fin 8192) :
    shapeCast ⟨2, ![128, 8192]⟩ x h (ix2 (rowAt p q) d) = x (ix3 p q d) :=
  shapeCast_apply x h _ _ (by
    rw [Shape.rowMajor_val_three, Shape.rowMajor_val_two]
    show (p.val * 16 + q.val) * 8192 + d.val = (p.val * 16 + q.val) * 8192 + d.val
    rfl)

/-- Splitting the rows back into the two leading axes: entry `(p, q, o)` is row `16 p + q`, column `o`. -/
theorem unflatten_apply {α : Type} (y : (⟨2, ![128, 8192]⟩ : Shape).Idx → α)
    (h : (⟨2, ![128, 8192]⟩ : Shape).ShapeCasts ⟨3, ![8, 16, 8192]⟩) (p : Fin 8) (q : Fin 16) (o : Fin 8192) :
    shapeCast ⟨3, ![8, 16, 8192]⟩ y h (ix3 p q o) = y (ix2 (rowAt p q) o) :=
  shapeCast_apply y h _ _ (by
    rw [Shape.rowMajor_val_three, Shape.rowMajor_val_two]
    show (p.val * 16 + q.val) * 8192 + o.val = (p.val * 16 + q.val) * 8192 + o.val
    rfl)

/-- The flattened layer at row `p`, column `o`, with the coordinates written out. -/
theorem layer_apply (X : (⟨2, ![128, 8192]⟩ : Shape).Idx → Ideal .f32) (W : (⟨2, ![8192, 8192]⟩ : Shape).Idx → Ideal .f32)
    (b : (⟨2, ![1, 8192]⟩ : Shape).Idx → Ideal .f32) (A : (⟨2, ![16, 8192]⟩ : Shape).Idx → Ideal .f32)
    (Bt : (⟨2, ![16, 8192]⟩ : Shape).Idx → Ideal .f32) (p : Fin 128) (o : Fin 8192) :
    layer X W b A Bt (ix2 p o)
      = (∑ d : Fin 8192, X (ix2 p d) * W (ix2 o d) + ∑ r : Fin 16, (∑ d : Fin 8192, X (ix2 p d) * A (ix2 r d)) * Bt (ix2 r o))
        + b (ix2 (0 : Fin 1) o) := rfl

/-- The reference's result is the flattened layer of the flattened activations, the bias as a row and the up
    projection transposed, read back in three axes. -/
theorem reference_eq_layer (x : S8x16x8192.Idx → Ideal .f32) (W : S8192x8192.Idx → Ideal .f32) (b : S8192.Idx → Ideal .f32)
    (A : S16x8192.Idx → Ideal .f32) (B : S8192x16.Idx → Ideal .f32)
    (h1 : S8x16x8192.ShapeCasts ⟨2, ![128, 8192]⟩) (h2 : S8192.ShapeCasts ⟨2, ![1, 8192]⟩)
    (h3 : S8192x16.Transposes [1, 0] ⟨2, ![16, 8192]⟩) (h4 : (⟨2, ![128, 8192]⟩ : Shape).ShapeCasts S8x16x8192) :
    val_main_v6 (F := Ideal) x W b A B
      = shapeCast S8x16x8192 (layer (shapeCast ⟨2, ![128, 8192]⟩ x h1) W (shapeCast ⟨2, ![1, 8192]⟩ b h2) A
          (transpose ⟨2, ![16, 8192]⟩ [1, 0] B h3)) h4 := by
  funext i
  obtain ⟨p, q, o, rfl⟩ : ∃ (p : Fin 8) (q : Fin 16) (o : Fin 8192), i = ix3 p q o := ⟨i 0, i 1, i 2, eq_ix3 i⟩
  have el0 : ∀ k : Fin 8192, lidx_main_v0 (ix3 p q o) k = ix3 p q k := fun k =>
    funext fun a => Fin.ext (by match a with | ⟨0, _⟩ => rfl | ⟨1, _⟩ => rfl | ⟨2, _⟩ => rfl)
  have er0 : ∀ k : Fin 8192, ridx_main_v0 (ix3 p q o) k = ix2 o k := fun k =>
    funext fun a => Fin.ext (by match a with | ⟨0, _⟩ => rfl | ⟨1, _⟩ => rfl)
  have eb : idx_main_v1 (idx_main_v2 (ix3 p q o)) = ix1 o :=
    funext fun a => Fin.ext (by match a with | ⟨0, _⟩ => rfl)
  have el5 : ∀ r : Fin 16, lidx_main_v5 (ix3 p q o) r = ix3 p q r := fun r =>
    funext fun a => Fin.ext (by match a with | ⟨0, _⟩ => rfl | ⟨1, _⟩ => rfl | ⟨2, _⟩ => rfl)
  have er5 : ∀ r : Fin 16, ridx_main_v5 (ix3 p q o) r = ix2 o r := fun r =>
    funext fun a => Fin.ext (by match a with | ⟨0, _⟩ => rfl | ⟨1, _⟩ => rfl)
  have el4 : ∀ (r : Fin 16) (k : Fin 8192), lidx_main_v4 (ix3 p q r) k = ix3 p q k := fun r k =>
    funext fun a => Fin.ext (by match a with | ⟨0, _⟩ => rfl | ⟨1, _⟩ => rfl | ⟨2, _⟩ => rfl)
  have er4 : ∀ (r : Fin 16) (k : Fin 8192), ridx_main_v4 (ix3 p q r) k = ix2 r k := fun r k =>
    funext fun a => Fin.ext (by match a with | ⟨0, _⟩ => rfl | ⟨1, _⟩ => rfl)
  rw [val_main_v6_apply, val_main_v3_apply, val_main_v0_apply, val_main_v2_apply, val_main_v1_apply, val_main_v5_apply,
    unflatten_apply]
  simp only [val_main_v4_apply, el0, er0, eb, el5, er5, el4, er4, Ideal.addf_def]
  have et : ∀ r : Fin 16, transpose ⟨2, ![16, 8192]⟩ [1, 0] B h3 (ix2 r o) = B (ix2 o r) := fun r => transpose_ix2_apply B h3 r o
  rw [layer_apply]
  simp only [flatten_apply, shapeCast_a_1a_apply, et]
  exact @add_right_comm EReal _ _ _ _

end Cert.ReferenceIdeal.RefValue

end
-- ==== Proof.lean ====
/-
  A linear layer with a low-rank correction, tiled on the matrix unit, against its plain reference.

  Inputs: activations `x` (8 × 16 × 8192), a weight `W` (8192 × 8192), a bias `b` (8192), a down projection `A`
  (16 × 8192) and an up projection `B` (8192 × 16).  Both programs compute, at entry `(p, q, o)`,

      ∑ d, x p q d · W o d   +   ∑ r, (∑ d, x p q d · A r d) · B o r   +   b o.

  The kernel flattens `x` to 128 rows, walks 4 output tiles of 2048 columns and, inside each, 8 contraction tiles of
  1024 columns, keeping the base product and the down projection as running sums in scratch memory; after the eighth
  contraction tile it adds the down projection's product with the transposed up projection and the bias, and writes the
  tile.  The reference contracts whole arrays and adds the bias before the low-rank term.  Over the extended reals the two
  differ only by regrouping finite sums and reordering additions — both valid without any finiteness — so the
  precondition is not used for the values; products are never redistributed over sums.

  The modules: `LoraSpec` (the layer and the regrouping of sums), `KernelPieces` (what a run of the body leaves),
  `KernelPayloads` (the body's arithmetic entry by entry), `KernelBlocks` (where each block sits in its array),
  `KernelRunning` (the running sums by induction on the grid), `KernelValue` (the whole result and the final
  reshape), `RefValue` (the reference is the same layer).  The idealization rewrote nothing, so that claim is trivial.
-/
import proofs.«133900_j72980084293847_2_alg».proof.Defs
import proofs.«133900_j72980084293847_2_alg».proof.Proof.Gen.Kernel
import proofs.«133900_j72980084293847_2_alg».proof.Proof.Gen.Kernel.Frame
import proofs.«133900_j72980084293847_2_alg».proof.Proof.Gen.KernelIdeal
import proofs.«133900_j72980084293847_2_alg».proof.Proof.Gen.KernelIdeal.Frame
import proofs.«133900_j72980084293847_2_alg».proof.Proof.Gen.ReferenceIdeal
import proofs.«133900_j72980084293847_2_alg».proof.Proof.Gen.Pre_finite_inputs
import proofs.«133900_j72980084293847_2_alg».proof.Proof.Gen.ReferenceIdeal.Run
import proofs.«133900_j72980084293847_2_alg».proof.Proof.Gen.ReferenceIdeal.Read
import proofs.«133900_j72980084293847_2_alg».proof.Proof.KernelValue
import proofs.«133900_j72980084293847_2_alg».proof.Proof.RefValue

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: it runs, and its arguments end as they began. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From arguments that agree, the kernel ends at the flattened layer read back in three axes and the reference at the
    same function of the same arrays. -/
theorem algebraic : Cert.algebraic_KernelIdeal_ReferenceIdeal := by
  intro m ρ m' ρ' _ hagree
  refine ⟨fun c => Cert.KernelIdeal.Result.value m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, (hagree c).1, (hagree c).2.1, (hagree c).2.2.1, (hagree c).2.2.2.1,
    (hagree c).2.2.2.2]
  exact Cert.ReferenceIdeal.RefValue.reference_eq_layer _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
